-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S2x8x64x512 : Shape := ⟨4, ![2, 8, 64, 512]⟩
abbrev S2x8x512x64 : Shape := ⟨4, ![2, 8, 512, 64]⟩
abbrev S2x8x512x512 : Shape := ⟨4, ![2, 8, 512, 512]⟩
abbrev S1x1x64x512 : Shape := ⟨4, ![1, 1, 64, 512]⟩
abbrev S1x1x512x64 : Shape := ⟨4, ![1, 1, 512, 64]⟩
abbrev S1x1x512x512 : Shape := ⟨4, ![1, 1, 512, 512]⟩
abbrev S1x1x64x64 : Shape := ⟨4, ![1, 1, 64, 64]⟩
abbrev S64x64 : Shape := ⟨2, ![64, 64]⟩
abbrev S64x512 : Shape := ⟨2, ![64, 512]⟩
abbrev S1x1x1x512 : Shape := ⟨4, ![1, 1, 1, 512]⟩
abbrev S1x512 : Shape := ⟨2, ![1, 512]⟩
abbrev S64x1 : Shape := ⟨2, ![64, 1]⟩

abbrev nBuf : Space → Nat
  | .hbm => 5
  | .vmem => 6
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x8x64x512, .f32⟩
  | .hbm, ⟨3, _⟩ => ⟨S2x8x512x64, .f32⟩
  | .hbm, ⟨4, _⟩ => ⟨S2x8x512x512, .f32⟩
  | .local _ .vmem, ⟨0, _⟩ => ⟨S1x1x64x512, .f32⟩
  | .local _ .vmem, ⟨1, _⟩ => ⟨S1x1x64x512, .f32⟩
  | .local _ .vmem, ⟨2, _⟩ => ⟨S1x1x512x64, .f32⟩
  | .local _ .vmem, ⟨3, _⟩ => ⟨S1x1x512x64, .f32⟩
  | .local _ .vmem, ⟨4, _⟩ => ⟨S1x1x512x512, .f32⟩
  | .local _ .vmem, ⟨5, _⟩ => ⟨S1x1x512x512, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2x512x8x64_S2x8x64x512_0_2_3_1 : S2x512x8x64.Transposes [0, 2, 3, 1] S2x8x64x512
  transposes_S2x512x8x64_S2x8x512x64_0_2_1_3 : S2x512x8x64.Transposes [0, 2, 1, 3] S2x8x512x64
  inb_S1x1x512x64_S1x1x64x64_0_0_0_0 : ∀ a, (![0, 0, 0, 0] : Fin 4 → Nat) a + S1x1x64x64.size a ≤ S1x1x512x64.size a
  h_S1x1x64x64 : 0 < S1x1x64x64.numel
  shapeCasts_S1x1x64x64_S64x64 : S1x1x64x64.ShapeCasts S64x64
  inb_S1x1x64x512_S1x1x1x512_0_0_0_0 : ∀ a, (![0, 0, 0, 0] : Fin 4 → Nat) a + S1x1x1x512.size a ≤ S1x1x64x512.size a
  h_S1x1x1x512 : 0 < S1x1x1x512.numel
  shapeCasts_S1x1x1x512_S1x512 : S1x1x1x512.ShapeCasts S1x512
  slices_S64x64_o0_0_S64x1 : S64x64.Slices ![0, 0] S64x1
  broadcasts_S64x1_S64x512 : S64x1.Broadcasts S64x512
  broadcasts_S1x512_S64x512 : S1x512.Broadcasts S64x512
  inb_S1x1x64x512_S1x1x1x512_0_0_1_0 : ∀ a, (![0, 0, 1, 0] : Fin 4 → Nat) a + S1x1x1x512.size a ≤ S1x1x64x512.size a
  slices_S64x64_o0_1_S64x1 : S64x64.Slices ![0, 1] S64x1
  inb_S1x1x64x512_S1x1x1x512_0_0_2_0 : ∀ a, (![0, 0, 2, 0] : Fin 4 → Nat) a + S1x1x1x512.size a ≤ S1x1x64x512.size a
  slices_S64x64_o0_2_S64x1 : S64x64.Slices ![0, 2] S64x1
  inb_S1x1x64x512_S1x1x1x512_0_0_3_0 : ∀ a, (![0, 0, 3, 0] : Fin 4 → Nat) a + S1x1x1x512.size a ≤ S1x1x64x512.size a
  slices_S64x64_o0_3_S64x1 : S64x64.Slices ![0, 3] S64x1
  inb_S1x1x64x512_S1x1x1x512_0_0_4_0 : ∀ a, (![0, 0, 4, 0] : Fin 4 → Nat) a + S1x1x1x512.size a ≤ S1x1x64x512.size a
  slices_S64x64_o0_4_S64x1 : S64x64.Slices ![0, 4] S64x1
  inb_S1x1x64x512_S1x1x1x512_0_0_5_0 : ∀ a, (![0, 0, 5, 0] : Fin 4 → Nat) a + S1x1x1x512.size a ≤ S1x1x64x512.size a
  slices_S64x64_o0_5_S64x1 : S64x64.Slices ![0, 5] S64x1
  inb_S1x1x64x512_S1x1x1x512_0_0_6_0 : ∀ a, (![0, 0, 6, 0] : Fin 4 → Nat) a + S1x1x1x512.size a ≤ S1x1x64x512.size a
  slices_S64x64_o0_6_S64x1 : S64x64.Slices ![0, 6] S64x1
  inb_S1x1x64x512_S1x1x1x512_0_0_7_0 : ∀ a, (![0, 0, 7, 0] : Fin 4 → Nat) a + S1x1x1x512.size a ≤ S1x1x64x512.size a
  slices_S64x64_o0_7_S64x1 : S64x64.Slices ![0, 7] S64x1
  inb_S1x1x64x512_S1x1x1x512_0_0_8_0 : ∀ a, (![0, 0, 8, 0] : Fin 4 → Nat) a + S1x1x1x512.size a ≤ S1x1x64x512.size a
  slices_S64x64_o0_8_S64x1 : S64x64.Slices ![0, 8] S64x1
  inb_S1x1x64x512_S1x1x1x512_0_0_9_0 : ∀ a, (![0, 0, 9, 0] : Fin 4 → Nat) a + S1x1x1x512.size a ≤ S1x1x64x512.size a
  slices_S64x64_o0_9_S64x1 : S64x64.Slices ![0, 9] S64x1
  inb_S1x1x64x512_S1x1x1x512_0_0_10_0 : ∀ a, (![0, 0, 10, 0] : Fin 4 → Nat) a + S1x1x1x512.size a ≤ S1x1x64x512.size a
  slices_S64x64_o0_10_S64x1 : S64x64.Slices ![0, 10] S64x1
  inb_S1x1x64x512_S1x1x1x512_0_0_11_0 : ∀ a, (![0, 0, 11, 0] : Fin 4 → Nat) a + S1x1x1x512.size a ≤ S1x1x64x512.size a
  slices_S64x64_o0_11_S64x1 : S64x64.Slices ![0, 11] S64x1
  inb_S1x1x64x512_S1x1x1x512_0_0_12_0 : ∀ a, (![0, 0, 12, 0] : Fin 4 → Nat) a + S1x1x1x512.size a ≤ S1x1x64x512.size a
  slices_S64x64_o0_12_S64x1 : S64x64.Slices ![0, 12] S64x1
  inb_S1x1x64x512_S1x1x1x512_0_0_13_0 : ∀ a, (![0, 0, 13, 0] : Fin 4 → Nat) a + S1x1x1x512.size a ≤ S1x1x64x512.size a
  slices_S64x64_o0_13_S64x1 : S64x64.Slices ![0, 13] S64x1
  inb_S1x1x64x512_S1x1x1x512_0_0_14_0 : ∀ a, (![0, 0, 14, 0] : Fin 4 → Nat) a + S1x1x1x512.size a ≤ S1x1x64x512.size a
  slices_S64x64_o0_14_S64x1 : S64x64.Slices ![0, 14] S64x1
  inb_S1x1x64x512_S1x1x1x512_0_0_15_0 : ∀ a, (![0, 0, 15, 0] : Fin 4 → Nat) a + S1x1x1x512.size a ≤ S1x1x64x512.size a
  slices_S64x64_o0_15_S64x1 : S64x64.Slices ![0, 15] S64x1
  inb_S1x1x64x512_S1x1x1x512_0_0_16_0 : ∀ a, (![0, 0, 16, 0] : Fin 4 → Nat) a + S1x1x1x512.size a ≤ S1x1x64x512.size a
  slices_S64x64_o0_16_S64x1 : S64x64.Slices ![0, 16] S64x1
  inb_S1x1x64x512_S1x1x1x512_0_0_17_0 : ∀ a, (![0, 0, 17, 0] : Fin 4 → Nat) a + S1x1x1x512.size a ≤ S1x1x64x512.size a
  slices_S64x64_o0_17_S64x1 : S64x64.Slices ![0, 17] S64x1
  inb_S1x1x64x512_S1x1x1x512_0_0_18_0 : ∀ a, (![0, 0, 18, 0] : Fin 4 → Nat) a + S1x1x1x512.size a ≤ S1x1x64x512.size a
  slices_S64x64_o0_18_S64x1 : S64x64.Slices ![0, 18] S64x1
  inb_S1x1x64x512_S1x1x1x512_0_0_19_0 : ∀ a, (![0, 0, 19, 0] : Fin 4 → Nat) a + S1x1x1x512.size a ≤ S1x1x64x512.size a
  slices_S64x64_o0_19_S64x1 : S64x64.Slices ![0, 19] S64x1
  inb_S1x1x64x512_S1x1x1x512_0_0_20_0 : ∀ a, (![0, 0, 20, 0] : Fin 4 → Nat) a + S1x1x1x512.size a ≤ S1x1x64x512.size a
  slices_S64x64_o0_20_S64x1 : S64x64.Slices ![0, 20] S64x1
  inb_S1x1x64x512_S1x1x1x512_0_0_21_0 : ∀ a, (![0, 0, 21, 0] : Fin 4 → Nat) a + S1x1x1x512.size a ≤ S1x1x64x512.size a
  slices_S64x64_o0_21_S64x1 : S64x64.Slices ![0, 21] S64x1
  inb_S1x1x64x512_S1x1x1x512_0_0_22_0 : ∀ a, (![0, 0, 22, 0] : Fin 4 → Nat) a + S1x1x1x512.size a ≤ S1x1x64x512.size a
  slices_S64x64_o0_22_S64x1 : S64x64.Slices ![0, 22] S64x1
  inb_S1x1x64x512_S1x1x1x512_0_0_23_0 : ∀ a, (![0, 0, 23, 0] : Fin 4 → Nat) a + S1x1x1x512.size a ≤ S1x1x64x512.size a
  slices_S64x64_o0_23_S64x1 : S64x64.Slices ![0, 23] S64x1
  inb_S1x1x64x512_S1x1x1x512_0_0_24_0 : ∀ a, (![0, 0, 24, 0] : Fin 4 → Nat) a + S1x1x1x512.size a ≤ S1x1x64x512.size a
  slices_S64x64_o0_24_S64x1 : S64x64.Slices ![0, 24] S64x1
  inb_S1x1x64x512_S1x1x1x512_0_0_25_0 : ∀ a, (![0, 0, 25, 0] : Fin 4 → Nat) a + S1x1x1x512.size a ≤ S1x1x64x512.size a
  slices_S64x64_o0_25_S64x1 : S64x64.Slices ![0, 25] S64x1
  inb_S1x1x64x512_S1x1x1x512_0_0_26_0 : ∀ a, (![0, 0, 26, 0] : Fin 4 → Nat) a + S1x1x1x512.size a ≤ S1x1x64x512.size a
  slices_S64x64_o0_26_S64x1 : S64x64.Slices ![0, 26] S64x1
  inb_S1x1x64x512_S1x1x1x512_0_0_27_0 : ∀ a, (![0, 0, 27, 0] : Fin 4 → Nat) a + S1x1x1x512.size a ≤ S1x1x64x512.size a
  slices_S64x64_o0_27_S64x1 : S64x64.Slices ![0, 27] S64x1
  inb_S1x1x64x512_S1x1x1x512_0_0_28_0 : ∀ a, (![0, 0, 28, 0] : Fin 4 → Nat) a + S1x1x1x512.size a ≤ S1x1x64x512.size a
  slices_S64x64_o0_28_S64x1 : S64x64.Slices ![0, 28] S64x1
  inb_S1x1x64x512_S1x1x1x512_0_0_29_0 : ∀ a, (![0, 0, 29, 0] : Fin 4 → Nat) a + S1x1x1x512.size a ≤ S1x1x64x512.size a
  slices_S64x64_o0_29_S64x1 : S64x64.Slices ![0, 29] S64x1
  inb_S1x1x64x512_S1x1x1x512_0_0_30_0 : ∀ a, (![0, 0, 30, 0] : Fin 4 → Nat) a + S1x1x1x512.size a ≤ S1x1x64x512.size a
  slices_S64x64_o0_30_S64x1 : S64x64.Slices ![0, 30] S64x1
  inb_S1x1x64x512_S1x1x1x512_0_0_31_0 : ∀ a, (![0, 0, 31, 0] : Fin 4 → Nat) a + S1x1x1x512.size a ≤ S1x1x64x512.size a
  slices_S64x64_o0_31_S64x1 : S64x64.Slices ![0, 31] S64x1
  inb_S1x1x64x512_S1x1x1x512_0_0_32_0 : ∀ a, (![0, 0, 32, 0] : Fin 4 → Nat) a + S1x1x1x512.size a ≤ S1x1x64x512.size a
  slices_S64x64_o0_32_S64x1 : S64x64.Slices ![0, 32] S64x1
  inb_S1x1x64x512_S1x1x1x512_0_0_33_0 : ∀ a, (![0, 0, 33, 0] : Fin 4 → Nat) a + S1x1x1x512.size a ≤ S1x1x64x512.size a
  slices_S64x64_o0_33_S64x1 : S64x64.Slices ![0, 33] S64x1
  inb_S1x1x64x512_S1x1x1x512_0_0_34_0 : ∀ a, (![0, 0, 34, 0] : Fin 4 → Nat) a + S1x1x1x512.size a ≤ S1x1x64x512.size a
  slices_S64x64_o0_34_S64x1 : S64x64.Slices ![0, 34] S64x1
  inb_S1x1x64x512_S1x1x1x512_0_0_35_0 : ∀ a, (![0, 0, 35, 0] : Fin 4 → Nat) a + S1x1x1x512.size a ≤ S1x1x64x512.size a
  slices_S64x64_o0_35_S64x1 : S64x64.Slices ![0, 35] S64x1
  inb_S1x1x64x512_S1x1x1x512_0_0_36_0 : ∀ a, (![0, 0, 36, 0] : Fin 4 → Nat) a + S1x1x1x512.size a ≤ S1x1x64x512.size a
  slices_S64x64_o0_36_S64x1 : S64x64.Slices ![0, 36] S64x1
  inb_S1x1x64x512_S1x1x1x512_0_0_37_0 : ∀ a, (![0, 0, 37, 0] : Fin 4 → Nat) a + S1x1x1x512.size a ≤ S1x1x64x512.size a
  slices_S64x64_o0_37_S64x1 : S64x64.Slices ![0, 37] S64x1
  inb_S1x1x64x512_S1x1x1x512_0_0_38_0 : ∀ a, (![0, 0, 38, 0] : Fin 4 → Nat) a + S1x1x1x512.size a ≤ S1x1x64x512.size a
  slices_S64x64_o0_38_S64x1 : S64x64.Slices ![0, 38] S64x1
  inb_S1x1x64x512_S1x1x1x512_0_0_39_0 : ∀ a, (![0, 0, 39, 0] : Fin 4 → Nat) a + S1x1x1x512.size a ≤ S1x1x64x512.size a
  slices_S64x64_o0_39_S64x1 : S64x64.Slices ![0, 39] S64x1
  inb_S1x1x64x512_S1x1x1x512_0_0_40_0 : ∀ a, (![0, 0, 40, 0] : Fin 4 → Nat) a + S1x1x1x512.size a ≤ S1x1x64x512.size a
  slices_S64x64_o0_40_S64x1 : S64x64.Slices ![0, 40] S64x1
  inb_S1x1x64x512_S1x1x1x512_0_0_41_0 : ∀ a, (![0, 0, 41, 0] : Fin 4 → Nat) a + S1x1x1x512.size a ≤ S1x1x64x512.size a
  slices_S64x64_o0_41_S64x1 : S64x64.Slices ![0, 41] S64x1
  inb_S1x1x64x512_S1x1x1x512_0_0_42_0 : ∀ a, (![0, 0, 42, 0] : Fin 4 → Nat) a + S1x1x1x512.size a ≤ S1x1x64x512.size a
  slices_S64x64_o0_42_S64x1 : S64x64.Slices ![0, 42] S64x1
  inb_S1x1x64x512_S1x1x1x512_0_0_43_0 : ∀ a, (![0, 0, 43, 0] : Fin 4 → Nat) a + S1x1x1x512.size a ≤ S1x1x64x512.size a
  slices_S64x64_o0_43_S64x1 : S64x64.Slices ![0, 43] S64x1
  inb_S1x1x64x512_S1x1x1x512_0_0_44_0 : ∀ a, (![0, 0, 44, 0] : Fin 4 → Nat) a + S1x1x1x512.size a ≤ S1x1x64x512.size a
  slices_S64x64_o0_44_S64x1 : S64x64.Slices ![0, 44] S64x1
  inb_S1x1x64x512_S1x1x1x512_0_0_45_0 : ∀ a, (![0, 0, 45, 0] : Fin 4 → Nat) a + S1x1x1x512.size a ≤ S1x1x64x512.size a
  slices_S64x64_o0_45_S64x1 : S64x64.Slices ![0, 45] S64x1
  inb_S1x1x64x512_S1x1x1x512_0_0_46_0 : ∀ a, (![0, 0, 46, 0] : Fin 4 → Nat) a + S1x1x1x512.size a ≤ S1x1x64x512.size a
  slices_S64x64_o0_46_S64x1 : S64x64.Slices ![0, 46] S64x1
  inb_S1x1x64x512_S1x1x1x512_0_0_47_0 : ∀ a, (![0, 0, 47, 0] : Fin 4 → Nat) a + S1x1x1x512.size a ≤ S1x1x64x512.size a
  slices_S64x64_o0_47_S64x1 : S64x64.Slices ![0, 47] S64x1
  inb_S1x1x64x512_S1x1x1x512_0_0_48_0 : ∀ a, (![0, 0, 48, 0] : Fin 4 → Nat) a + S1x1x1x512.size a ≤ S1x1x64x512.size a
  slices_S64x64_o0_48_S64x1 : S64x64.Slices ![0, 48] S64x1
  inb_S1x1x64x512_S1x1x1x512_0_0_49_0 : ∀ a, (![0, 0, 49, 0] : Fin 4 → Nat) a + S1x1x1x512.size a ≤ S1x1x64x512.size a
  slices_S64x64_o0_49_S64x1 : S64x64.Slices ![0, 49] S64x1
  inb_S1x1x64x512_S1x1x1x512_0_0_50_0 : ∀ a, (![0, 0, 50, 0] : Fin 4 → Nat) a + S1x1x1x512.size a ≤ S1x1x64x512.size a
  slices_S64x64_o0_50_S64x1 : S64x64.Slices ![0, 50] S64x1
  inb_S1x1x64x512_S1x1x1x512_0_0_51_0 : ∀ a, (![0, 0, 51, 0] : Fin 4 → Nat) a + S1x1x1x512.size a ≤ S1x1x64x512.size a
  slices_S64x64_o0_51_S64x1 : S64x64.Slices ![0, 51] S64x1
  inb_S1x1x64x512_S1x1x1x512_0_0_52_0 : ∀ a, (![0, 0, 52, 0] : Fin 4 → Nat) a + S1x1x1x512.size a ≤ S1x1x64x512.size a
  slices_S64x64_o0_52_S64x1 : S64x64.Slices ![0, 52] S64x1
  inb_S1x1x64x512_S1x1x1x512_0_0_53_0 : ∀ a, (![0, 0, 53, 0] : Fin 4 → Nat) a + S1x1x1x512.size a ≤ S1x1x64x512.size a
  slices_S64x64_o0_53_S64x1 : S64x64.Slices ![0, 53] S64x1
  inb_S1x1x64x512_S1x1x1x512_0_0_54_0 : ∀ a, (![0, 0, 54, 0] : Fin 4 → Nat) a + S1x1x1x512.size a ≤ S1x1x64x512.size a
  slices_S64x64_o0_54_S64x1 : S64x64.Slices ![0, 54] S64x1
  inb_S1x1x64x512_S1x1x1x512_0_0_55_0 : ∀ a, (![0, 0, 55, 0] : Fin 4 → Nat) a + S1x1x1x512.size a ≤ S1x1x64x512.size a
  slices_S64x64_o0_55_S64x1 : S64x64.Slices ![0, 55] S64x1
  inb_S1x1x64x512_S1x1x1x512_0_0_56_0 : ∀ a, (![0, 0, 56, 0] : Fin 4 → Nat) a + S1x1x1x512.size a ≤ S1x1x64x512.size a
  slices_S64x64_o0_56_S64x1 : S64x64.Slices ![0, 56] S64x1
  inb_S1x1x64x512_S1x1x1x512_0_0_57_0 : ∀ a, (![0, 0, 57, 0] : Fin 4 → Nat) a + S1x1x1x512.size a ≤ S1x1x64x512.size a
  slices_S64x64_o0_57_S64x1 : S64x64.Slices ![0, 57] S64x1
  inb_S1x1x64x512_S1x1x1x512_0_0_58_0 : ∀ a, (![0, 0, 58, 0] : Fin 4 → Nat) a + S1x1x1x512.size a ≤ S1x1x64x512.size a
  slices_S64x64_o0_58_S64x1 : S64x64.Slices ![0, 58] S64x1
  inb_S1x1x64x512_S1x1x1x512_0_0_59_0 : ∀ a, (![0, 0, 59, 0] : Fin 4 → Nat) a + S1x1x1x512.size a ≤ S1x1x64x512.size a
  slices_S64x64_o0_59_S64x1 : S64x64.Slices ![0, 59] S64x1
  inb_S1x1x64x512_S1x1x1x512_0_0_60_0 : ∀ a, (![0, 0, 60, 0] : Fin 4 → Nat) a + S1x1x1x512.size a ≤ S1x1x64x512.size a
  slices_S64x64_o0_60_S64x1 : S64x64.Slices ![0, 60] S64x1
  inb_S1x1x64x512_S1x1x1x512_0_0_61_0 : ∀ a, (![0, 0, 61, 0] : Fin 4 → Nat) a + S1x1x1x512.size a ≤ S1x1x64x512.size a
  slices_S64x64_o0_61_S64x1 : S64x64.Slices ![0, 61] S64x1
  inb_S1x1x64x512_S1x1x1x512_0_0_62_0 : ∀ a, (![0, 0, 62, 0] : Fin 4 → Nat) a + S1x1x1x512.size a ≤ S1x1x64x512.size a
  slices_S64x64_o0_62_S64x1 : S64x64.Slices ![0, 62] S64x1
  inb_S1x1x64x512_S1x1x1x512_0_0_63_0 : ∀ a, (![0, 0, 63, 0] : Fin 4 → Nat) a + S1x1x1x512.size a ≤ S1x1x64x512.size a
  slices_S64x64_o0_63_S64x1 : S64x64.Slices ![0, 63] S64x1
  inb_S1x1x512x512_S1x1x64x512_0_0_0_0 : ∀ a, (![0, 0, 0, 0] : Fin 4 → Nat) a + S1x1x64x512.size a ≤ S1x1x512x512.size a
  h_S1x1x64x512 : 0 < S1x1x64x512.numel
  shapeCasts_S1x1x64x512_S64x512 : S1x1x64x512.ShapeCasts S64x512
  shapeCasts_S64x512_S1x1x64x512 : S64x512.ShapeCasts S1x1x64x512
  inb_S1x1x512x64_S1x1x64x64_0_0_64_0 : ∀ a, (![0, 0, 64, 0] : Fin 4 → Nat) a + S1x1x64x64.size a ≤ S1x1x512x64.size a
  inb_S1x1x512x512_S1x1x64x512_0_0_64_0 : ∀ a, (![0, 0, 64, 0] : Fin 4 → Nat) a + S1x1x64x512.size a ≤ S1x1x512x512.size a
  inb_S1x1x512x64_S1x1x64x64_0_0_128_0 : ∀ a, (![0, 0, 128, 0] : Fin 4 → Nat) a + S1x1x64x64.size a ≤ S1x1x512x64.size a
  inb_S1x1x512x512_S1x1x64x512_0_0_128_0 : ∀ a, (![0, 0, 128, 0] : Fin 4 → Nat) a + S1x1x64x512.size a ≤ S1x1x512x512.size a
  inb_S1x1x512x64_S1x1x64x64_0_0_192_0 : ∀ a, (![0, 0, 192, 0] : Fin 4 → Nat) a + S1x1x64x64.size a ≤ S1x1x512x64.size a
  inb_S1x1x512x512_S1x1x64x512_0_0_192_0 : ∀ a, (![0, 0, 192, 0] : Fin 4 → Nat) a + S1x1x64x512.size a ≤ S1x1x512x512.size a
  inb_S1x1x512x64_S1x1x64x64_0_0_256_0 : ∀ a, (![0, 0, 256, 0] : Fin 4 → Nat) a + S1x1x64x64.size a ≤ S1x1x512x64.size a
  inb_S1x1x512x512_S1x1x64x512_0_0_256_0 : ∀ a, (![0, 0, 256, 0] : Fin 4 → Nat) a + S1x1x64x512.size a ≤ S1x1x512x512.size a
  inb_S1x1x512x64_S1x1x64x64_0_0_320_0 : ∀ a, (![0, 0, 320, 0] : Fin 4 → Nat) a + S1x1x64x64.size a ≤ S1x1x512x64.size a
  inb_S1x1x512x512_S1x1x64x512_0_0_320_0 : ∀ a, (![0, 0, 320, 0] : Fin 4 → Nat) a + S1x1x64x512.size a ≤ S1x1x512x512.size a
  inb_S1x1x512x64_S1x1x64x64_0_0_384_0 : ∀ a, (![0, 0, 384, 0] : Fin 4 → Nat) a + S1x1x64x64.size a ≤ S1x1x512x64.size a
  inb_S1x1x512x512_S1x1x64x512_0_0_384_0 : ∀ a, (![0, 0, 384, 0] : Fin 4 → Nat) a + S1x1x64x512.size a ≤ S1x1x512x512.size a
  inb_S1x1x512x64_S1x1x64x64_0_0_448_0 : ∀ a, (![0, 0, 448, 0] : Fin 4 → Nat) a + S1x1x64x64.size a ≤ S1x1x512x64.size a
  inb_S1x1x512x512_S1x1x64x512_0_0_448_0 : ∀ a, (![0, 0, 448, 0] : Fin 4 → Nat) a + S1x1x64x512.size a ≤ S1x1x512x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x512.size a ≤ S2x8x64x512.size a
  hwx0_0 : ∀ i : grid0.Coords, EltTy.bits .f32 = 32 ∨ (Rect.block (s := S2x8x64x512) S1x1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x64.size a ≤ S2x8x512x64.size a
  hwx0_1 : ∀ i : grid0.Coords, EltTy.bits .f32 = 32 ∨ (Rect.block (s := S2x8x512x64) S1x1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S2x8x512x512.size a
  hwx0_2 : ∀ i : grid0.Coords, EltTy.bits .f32 = 32 ∨ (Rect.block (s := S2x8x512x512) S1x1x512x512.size (cc0_transform_2 i) (hinb0_2 i)).WholeWords (EltTy.packing .f32)

variable [Facts₀]

abbrev win0_0 : Pipeline.Window sig grid0 :=
  Pipeline.Window.ofSpec (Memref.whole main_v0) S1x1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x512x8x64 : Shape := ⟨4, ![2, 512, 8, 64]⟩
abbrev S2x8x512x64 : Shape := ⟨4, ![2, 8, 512, 64]⟩
abbrev S2x8x1x512x64 : Shape := ⟨5, ![2, 8, 1, 512, 64]⟩
abbrev S2x8x512x1x64 : Shape := ⟨5, ![2, 8, 512, 1, 64]⟩
abbrev S2x8x512x512x64 : Shape := ⟨5, ![2, 8, 512, 512, 64]⟩
abbrev S_ : Shape := ⟨0, ![]⟩
abbrev S2x8x512x512 : Shape := ⟨4, ![2, 8, 512, 512]⟩

abbrev nBuf : Space → Nat
  | .hbm => 15
  | .vmem => 0
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x8x512x64, .f32⟩
  | .hbm, ⟨3, _⟩ => ⟨S2x8x512x64, .f32⟩
  | .hbm, ⟨4, _⟩ => ⟨S2x8x1x512x64, .f32⟩
  | .hbm, ⟨5, _⟩ => ⟨S2x8x512x1x64, .f32⟩
  | .hbm, ⟨6, _⟩ => ⟨S2x8x512x512x64, .f32⟩
  | .hbm, ⟨7, _⟩ => ⟨S2x8x512x512x64, .f32⟩
  | .hbm, ⟨8, _⟩ => ⟨S2x8x512x512x64, .f32⟩
  | .hbm, ⟨9, _⟩ => ⟨S2x8x512x512x64, .f32⟩
  | .hbm, ⟨10, _⟩ => ⟨S_, .f32⟩
  | .hbm, ⟨11, _⟩ => ⟨S2x8x512x512, .f32⟩
  | .hbm, ⟨12, _⟩ => ⟨S_, .f32⟩
  | .hbm, ⟨13, _⟩ => ⟨S2x8x512x512, .f32⟩
  | .hbm, ⟨14, _⟩ => ⟨S2x8x512x512, .f32⟩
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  transposes_S2x512x8x64_S2x8x512x64_0_2_1_3 : S2x512x8x64.Transposes [0, 2, 1, 3] S2x8x512x64
  bcast_S2x8x512x64_S2x8x1x512x64_0_1_3_4 : S2x8x512x64.BroadcastsInDim S2x8x1x512x64 (![0, 1, 3, 4] : Fin 4 → Fin S2x8x1x512x64.rank)
  bcast_S2x8x512x64_S2x8x512x1x64_0_1_2_4 : S2x8x512x64.BroadcastsInDim S2x8x512x1x64 (![0, 1, 2, 4] : Fin 4 → Fin S2x8x512x1x64.rank)
  bcast_S2x8x1x512x64_S2x8x512x512x64_0_1_2_3_4 : S2x8x1x512x64.BroadcastsInDim S2x8x512x512x64 (![0, 1, 2, 3, 4] : Fin 5 → Fin S2x8x512x512x64.rank)
  bcast_S2x8x512x1x64_S2x8x512x512x64_0_1_2_3_4 : S2x8x512x1x64.BroadcastsInDim S2x8x512x512x64 (![0, 1, 2, 3, 4] : Fin 5 → Fin S2x8x512x512x64.rank)
  reducesTo_S2x8x512x512x64_S2x8x512x512_d4 : S2x8x512x512x64.ReducesTo [4] S2x8x512x512
  h_S_ : 0 < S_.numel
  bcast_S_S2x8x512x512 : S_.BroadcastsInDim S2x8x512x512 (![] : Fin 0 → Fin S2x8x512x512.rank)

variable [Facts₀]

class Facts : Prop extends Facts₀ where

variable [Facts]
-- ==== Proof.L1Spec.lean ====
/-
  The L1 score, as a function of the arrays the kernel's region finds.

  For a query array `A0 : [2, 8, 64, 512]` (batch, head, width, query position) and a key array
  `A1 : [2, 8, 512, 64]` (batch, head, key position, width) the score at (batch `b`, head `h`, key `s`, query `t`) is

      scale · ∑ w < 64, |A1 (b, h, s, w) − A0 (b, h, w, t)|,        scale the f32 word of −1/8,

  on the extended reals, `|a|` being `max a (−a)`. The same formula on one (batch, head) block — a `[1, 1, 64, 512]`
  and a `[1, 1, 512, 64]` buffer — is the block's score. A body that adds the 64 terms one after the other into an
  accumulator that starts at the zero word computes the left fold `accFold`, which is the sum.
  Also here: `|a − b| = |b − a|` for ALL extended reals (both differences of two equal infinities are `⊥`, of
  absolute value `⊤`), so the law that joins a program subtracting keys from queries to one subtracting queries from
  keys needs no finiteness. `l1attn` is the score of the two arguments `[2, 512, 8, 64]` (batch, position, head, width)
  re-laid as the region finds them.
-/
import Idealize.ShloMosaic.PureOps.Ideal
import Idealize.ShloMosaic.PureOps.Ideal.Laws
import Idealize.ShloMosaic.Lib.ValueIdx

noncomputable section

open scoped BigOperators

namespace Cert.L1Spec

open Idealize.ShloMosaic Idealize.ShloMosaic.ValueIdx

/-- The absolute value the ideal instance computes: `max a (−a)`. -/
def eabs (a : EReal) : EReal := max a (-a)

/-- The ideal instance's `absf` is `eabs`. -/
theorem absf_eq_eabs (a : Ideal .f32) : FloatOps.absf a = eabs a := rfl

/-- `|a − b| = |b − a|` on the extended reals, infinities included. -/
theorem eabs_sub_comm (a b : EReal) : eabs (a - b) = eabs (b - a) := by
  unfold eabs
  induction a using EReal.rec <;> induction b using EReal.rec
  all_goals first
    | rfl
    | (rw [← EReal.coe_sub, ← EReal.coe_sub, ← EReal.coe_neg, ← EReal.coe_neg, neg_sub, neg_sub, max_comm])
    | simp

/-- The scale: the f32 word of −1/8. -/
def scale : EReal := Ideal.ofBits .f32 0xBE000000#32

/-- A natural number as a width coordinate (below 64 it is itself). -/
abbrev cl (i : ℕ) : Fin 64 := ⟨i % 64, Nat.mod_lt _ (by decide)⟩

theorem cl_val (w : Fin 64) : cl w.val = w := Fin.ext (Nat.mod_eq_of_lt w.isLt)

/-- An accumulator started at the zero word, the terms added one after the other. -/
def accFold (f : ℕ → EReal) : ℕ → EReal
  | 0 => Ideal.ofBits .f32 0x00000000#32
  | n + 1 => accFold f n + f n

/-- The left fold is the sum. -/
theorem accFold_eq_sum (f : ℕ → EReal) (n : ℕ) : accFold f n = ∑ i ∈ Finset.range n, f i := by
  induction n with
  | zero => simp only [accFold, Ideal.ofBits_zero_f32, Finset.range_zero, Finset.sum_empty]
  | succ n ih => rw [accFold, ih, Finset.sum_range_succ]

/-- Over the 64 width coordinates. -/
theorem accFold_eq_sum_fin (F : Fin 64 → EReal) : accFold (fun i => F (cl i)) 64 = ∑ w : Fin 64, F w := by
  rw [accFold_eq_sum, ← Fin.sum_univ_eq_sum_range (fun i => F (cl i)) 64]
  exact Finset.sum_congr rfl fun w _ => by rw [cl_val]

/-- One (batch, head) block's score at key row `s` and query column `t`, as the body accumulates it. -/
def blockFold (x0 : (⟨4, ![1, 1, 64, 512]⟩ : Shape).Idx → EReal) (x1 : (⟨4, ![1, 1, 512, 64]⟩ : Shape).Idx → EReal)
    (s t : Fin 512) : EReal :=
  scale * accFold (fun w => eabs (x1 (ix4 (0 : Fin 1) (0 : Fin 1) s (cl w)) - x0 (ix4 (0 : Fin 1) (0 : Fin 1) (cl w) t))) 64

/-- The block's score as a sum over the width. -/
theorem blockFold_eq_sum (x0 : (⟨4, ![1, 1, 64, 512]⟩ : Shape).Idx → EReal) (x1 : (⟨4, ![1, 1, 512, 64]⟩ : Shape).Idx → EReal)
    (s t : Fin 512) :
    blockFold x0 x1 s t
      = scale * ∑ w : Fin 64, eabs (x1 (ix4 (0 : Fin 1) (0 : Fin 1) s w) - x0 (ix4 (0 : Fin 1) (0 : Fin 1) w t)) := by
  unfold blockFold
  rw [accFold_eq_sum_fin (fun w => eabs (x1 (ix4 (0 : Fin 1) (0 : Fin 1) s w) - x0 (ix4 (0 : Fin 1) (0 : Fin 1) w t)))]

/-- The block's score as a function of the block index `(0, 0, s, t)`. -/
def blockScore (x0 : (⟨4, ![1, 1, 64, 512]⟩ : Shape).Idx → EReal) (x1 : (⟨4, ![1, 1, 512, 64]⟩ : Shape).Idx → EReal) :
    (⟨4, ![1, 1, 512, 512]⟩ : Shape).Idx → EReal :=
  fun y => blockFold x0 x1 ⟨(y 2).val, (y 2).isLt⟩ ⟨(y 3).val, (y 3).isLt⟩

/-- The whole score array, from the query array laid out (batch, head, width, position) and the key array laid out
    (batch, head, position, width). -/
def score (A0 : (⟨4, ![2, 8, 64, 512]⟩ : Shape).Idx → EReal) (A1 : (⟨4, ![2, 8, 512, 64]⟩ : Shape).Idx → EReal) :
    (⟨4, ![2, 8, 512, 512]⟩ : Shape).Idx → EReal :=
  fun i => scale * ∑ w : Fin 64,
    eabs (A1 (ix4 (⟨(i 0).val, (i 0).isLt⟩ : Fin 2) (⟨(i 1).val, (i 1).isLt⟩ : Fin 8) (⟨(i 2).val, (i 2).isLt⟩ : Fin 512) w)
      - A0 (ix4 (⟨(i 0).val, (i 0).isLt⟩ : Fin 2) (⟨(i 1).val, (i 1).isLt⟩ : Fin 8) w (⟨(i 3).val, (i 3).isLt⟩ : Fin 512)))

/-- The query argument `[2, 512, 8, 64]` (batch, position, head, width) laid out (batch, head, width, position). -/
def queryLayout (q : (⟨4, ![2, 512, 8, 64]⟩ : Shape).Idx → EReal) : (⟨4, ![2, 8, 64, 512]⟩ : Shape).Idx → EReal :=
  fun i => q (ix4 (⟨(i 0).val, (i 0).isLt⟩ : Fin 2) (⟨(i 3).val, (i 3).isLt⟩ : Fin 512) (⟨(i 1).val, (i 1).isLt⟩ : Fin 8)
    (⟨(i 2).val, (i 2).isLt⟩ : Fin 64))

/-- The key argument `[2, 512, 8, 64]` (batch, position, head, width) laid out (batch, head, position, width). -/
def keyLayout (k : (⟨4, ![2, 512, 8, 64]⟩ : Shape).Idx → EReal) : (⟨4, ![2, 8, 512, 64]⟩ : Shape).Idx → EReal :=
  fun i => k (ix4 (⟨(i 0).val, (i 0).isLt⟩ : Fin 2) (⟨(i 2).val, (i 2).isLt⟩ : Fin 512) (⟨(i 1).val, (i 1).isLt⟩ : Fin 8)
    (⟨(i 3).val, (i 3).isLt⟩ : Fin 64))

/-- THE RESULT as one function of the two arguments: at (batch `b`, head `h`, key `s`, query `t`) it is
    `scale · ∑ w, |k (b, s, h, w) − q (b, t, h, w)|`. -/
def l1attn (q k : (⟨4, ![2, 512, 8, 64]⟩ : Shape).Idx → EReal) : (⟨4, ![2, 8, 512, 512]⟩ : Shape).Idx → EReal :=
  score (queryLayout q) (keyLayout k)

end Cert.L1Spec

end
-- ==== Proof.LibBlockReads.lean ====
/-
  Layout operations of a block `[1, 1, n, m]` read at an index, generic in the extents and the element type
  (a loaded buffer's elements are `Val e`, a computed matrix's any type).

  A pipelined block of a rank-4 array whose two leading axes are squeezed is a `[1, 1, n, m]` buffer; a body
  handles it as the matrix `[n, m]`. Read at a coordinate pair `(p, q)`:
  * the cast `[1, 1, n, m] → [n, m]` is the buffer at `(0, 0, p, q)`, and the cast back is the matrix at `(p, q)`;
  * a load of the `n'` rows from row `o` on, cast to `[n', m]`, is the buffer at `(0, 0, o + p, q)`;
  * a load of the single row `w`, cast to `[1, m]` and spread over `k` rows, is the buffer at `(0, 0, w, q)`
    whatever the row `p`;
  * column `w` of a matrix `[n, c]`, cut out as `[n, 1]` and spread over `m` columns, is the matrix at `(p, w)`
    whatever the column `q`;
  * the unit-stride rectangle of `n'` whole rows from row `o` places its local index `(u, v, p, q)` at
    `(0, 0, o + p, q)`.
-/
import Idealize.ShloMosaic.Lib.Pipeline.Value
import Idealize.ShloMosaic.Lib.ValueIdx
import Idealize.ShloMosaic.Lib.ValueLayout

noncomputable section

namespace Idealize.ShloMosaic.BlockReads

open Idealize.ShloMosaic Idealize.ShloMosaic.ValueIdx

variable {α : Type}

/-- The row offset of a rectangle of `n'` rows inside `n` rows leaves `o + p` a row of the buffer. -/
theorem row_lt {n n' m m' o : ℕ}
    (inb : ∀ a, (![0, 0, o, 0] : Fin 4 → ℕ) a + (⟨4, ![1, 1, n', m']⟩ : Shape).size a ≤ (⟨4, ![1, 1, n, m]⟩ : Shape).size a)
    (p : Fin n') : o + p.val < n := by
  have h : o + n' ≤ n := inb 2
  have := p.isLt
  omega

/-- The cast `[1, 1, n, m] → [n, m]` read at `(p, q)`. -/
theorem shapeCast_11ab_ab_apply {n m : ℕ} (x : (⟨4, ![1, 1, n, m]⟩ : Shape).Idx → α)
    (h : (⟨4, ![1, 1, n, m]⟩ : Shape).ShapeCasts ⟨2, ![n, m]⟩) (p : Fin n) (q : Fin m) :
    shapeCast ⟨2, ![n, m]⟩ x h (ix2 p q) = x (ix4 (0 : Fin 1) (0 : Fin 1) p q) :=
  shapeCast_apply x h (ix2 p q) (ix4 (0 : Fin 1) (0 : Fin 1) p q) (by
    rw [Shape.rowMajor_val_four, Shape.rowMajor_val_two]
    show (((0 * 1 + 0) * n + p.val) * m + q.val) = p.val * m + q.val
    simp only [Nat.zero_mul, Nat.zero_add])

/-- The cast `[n, m] → [1, 1, n, m]` read at `(u, v, p, q)`. -/
theorem shapeCast_ab_11ab_apply {n m : ℕ} (x : (⟨2, ![n, m]⟩ : Shape).Idx → α)
    (h : (⟨2, ![n, m]⟩ : Shape).ShapeCasts ⟨4, ![1, 1, n, m]⟩) (u v : Fin 1) (p : Fin n) (q : Fin m) :
    shapeCast ⟨4, ![1, 1, n, m]⟩ x h (ix4 u v p q) = x (ix2 p q) :=
  shapeCast_apply x h (ix4 u v p q) (ix2 p q) (by
    rw [Shape.rowMajor_val_four, Shape.rowMajor_val_two]
    show p.val * m + q.val = (((u.val * 1 + v.val) * n + p.val) * m + q.val)
    have hu : u.val = 0 := by have := u.isLt; omega
    have hv : v.val = 0 := by have := v.isLt; omega
    rw [hu, hv]
    simp only [Nat.zero_mul, Nat.zero_add])

/-- The rectangle of `n'` whole rows from row `o` places `(u, v, p, q)` at `(0, 0, o + p, q)`. -/
theorem emb_rows {n n' m o : ℕ}
    (inb : ∀ a, (![0, 0, o, 0] : Fin 4 → ℕ) a + (⟨4, ![1, 1, n', m]⟩ : Shape).size a ≤ (⟨4, ![1, 1, n, m]⟩ : Shape).size a)
    (u v : Fin 1) (p : Fin n') (q : Fin m) :
    (Rect.unit (s := ⟨4, ![1, 1, n, m]⟩) ![0, 0, o, 0] (⟨4, ![1, 1, n', m]⟩ : Shape).size inb).emb (ix4 u v p q)
      = ix4 (0 : Fin 1) (0 : Fin 1) (⟨o + p.val, row_lt inb p⟩ : Fin n) q := by
  funext a
  refine Fin.ext ?_
  match a with
  | ⟨0, _⟩ => show 0 + 1 * u.val = 0; have := u.isLt; omega
  | ⟨1, _⟩ => show 0 + 1 * v.val = 0; have := v.isLt; omega
  | ⟨2, _⟩ => show o + 1 * p.val = o + p.val; omega
  | ⟨3, _⟩ => show 0 + 1 * q.val = q.val; omega

/-- A load of `n'` rows from row `o`, cast to the matrix `[n', m]`, read at `(p, q)`. -/
theorem ld_rows_apply {Val : EltTy → Type} {e : EltTy} {n n' m o : ℕ} (X : (⟨4, ![1, 1, n, m]⟩ : Shape).Idx → Val e)
    (inb : ∀ a, (![0, 0, o, 0] : Fin 4 → ℕ) a + (⟨4, ![1, 1, n', m]⟩ : Shape).size a ≤ (⟨4, ![1, 1, n, m]⟩ : Shape).size a)
    (hc : (⟨4, ![1, 1, n', m]⟩ : Shape).ShapeCasts ⟨2, ![n', m]⟩) (p : Fin n') (q : Fin m) :
    shapeCast ⟨2, ![n', m]⟩
        (View.ld X (Rect.unit (s := ⟨4, ![1, 1, n, m]⟩) ![0, 0, o, 0] (⟨4, ![1, 1, n', m]⟩ : Shape).size inb)) hc (ix2 p q)
      = X (ix4 (0 : Fin 1) (0 : Fin 1) (⟨o + p.val, row_lt inb p⟩ : Fin n) q) := by
  refine (shapeCast_11ab_ab_apply (n := n') (m := m) _ hc p q).trans ?_
  exact congrArg X (emb_rows inb 0 0 p q)

/-- A load of the one row `w`, cast to `[1, m]` and spread over `k` rows, read at `(p, q)`. -/
theorem ld_row_spread_apply {Val : EltTy → Type} {e : EltTy} {n m k w : ℕ} (X : (⟨4, ![1, 1, n, m]⟩ : Shape).Idx → Val e)
    (inb : ∀ a, (![0, 0, w, 0] : Fin 4 → ℕ) a + (⟨4, ![1, 1, 1, m]⟩ : Shape).size a ≤ (⟨4, ![1, 1, n, m]⟩ : Shape).size a)
    (hc : (⟨4, ![1, 1, 1, m]⟩ : Shape).ShapeCasts ⟨2, ![1, m]⟩)
    (hb : (⟨2, ![1, m]⟩ : Shape).Broadcasts ⟨2, ![k, m]⟩) (p : Fin k) (q : Fin m) :
    broadcastTo ⟨2, ![k, m]⟩
        (shapeCast ⟨2, ![1, m]⟩
          (View.ld X (Rect.unit (s := ⟨4, ![1, 1, n, m]⟩) ![0, 0, w, 0] (⟨4, ![1, 1, 1, m]⟩ : Shape).size inb)) hc) hb (ix2 p q)
      = X (ix4 (0 : Fin 1) (0 : Fin 1) (⟨w, by have := row_lt inb (0 : Fin 1); simpa using this⟩ : Fin n) q) := by
  refine (broadcastTo_1b_ab_apply _ hb p q).trans ?_
  refine (ld_rows_apply X inb hc (0 : Fin 1) q).trans ?_
  exact congrArg X (funext fun a => Fin.ext (by
    match a with
    | ⟨0, _⟩ => rfl
    | ⟨1, _⟩ => rfl
    | ⟨2, _⟩ => show w + 0 = w; omega
    | ⟨3, _⟩ => rfl))

/-- Column `w` of a matrix `[n, c]` is inside it. -/
theorem col_lt {n c w : ℕ} (hs : (⟨2, ![n, c]⟩ : Shape).Slices ![0, w] ⟨2, ![n, 1]⟩) : w < c := by
  obtain ⟨_, h⟩ := hs
  have h1 : w + 1 ≤ c := h 1
  omega

/-- Column `w` of a matrix `[n, c]`, cut out as `[n, 1]` and spread over `m` columns, read at `(p, q)`. -/
theorem col_spread_apply {n c m w : ℕ} (K : (⟨2, ![n, c]⟩ : Shape).Idx → α)
    (hs : (⟨2, ![n, c]⟩ : Shape).Slices ![0, w] ⟨2, ![n, 1]⟩)
    (hb : (⟨2, ![n, 1]⟩ : Shape).Broadcasts ⟨2, ![n, m]⟩) (p : Fin n) (q : Fin m) :
    broadcastTo ⟨2, ![n, m]⟩ (extractStridedSlice ⟨2, ![n, 1]⟩ ![0, w] K hs) hb (ix2 p q)
      = K (ix2 p (⟨w, col_lt hs⟩ : Fin c)) := by
  refine (broadcastTo_apply _ hb (ix2 p q) (ix2 p (0 : Fin 1)) fun ax => ?_).trans ?_
  · match ax with
    | ⟨0, _⟩ =>
      show p.val = if n = 1 then 0 else p.val
      split
      · have := p.isLt; omega
      · rfl
    | ⟨1, _⟩ => rfl
  · exact slice2_axis1_apply w K hs p (0 : Fin 1) ⟨w, col_lt hs⟩ rfl

end Idealize.ShloMosaic.BlockReads

end
-- ==== Proof.BodyValue.lean ====
/-
  What the kernel body leaves in the output block, as a function of the two input blocks.

  The body handles one (batch, head) block: the query block `x0 : [1, 1, 64, 512]` (width × query position) and the key
  block `x1 : [1, 1, 512, 64]` (key position × width). It cuts the 512 key rows into eight chunks of 64; for each chunk
  it starts an accumulator `[64, 512]` at the zero word and, for each width coordinate `w = 0, …, 63` in turn, adds
  `|K − Q|` where `K` is column `w` of the key chunk spread over the 512 query columns and `Q` is row `w` of the query
  block spread over the 64 key rows; the accumulator times the scale is stored as rows `64 c, …, 64 c + 63` of the
  output block. Read at row `p` and column `q` of chunk `c` this is

      scale · ((((0 + |x1 (64 c + p, 0) − x0 (0, q)|) + |x1 (64 c + p, 1) − x0 (1, q)|) + …) + |x1 (64 c + p, 63) − x0 (63, q)|),

  the left fold `L1Spec.blockFold x0 x1 (64 c + p) q`. Each of the eight stores is that function of the block index
  under its rectangle, and the eight rectangles cover the block: the block is `L1Spec.blockScore x0 x1`.
-/
import proofs.«178027_j78383153152692_2_alg».proof.Proof.Gen.KernelIdeal.Frame
import proofs.«178027_j78383153152692_2_alg».proof.Proof.L1Spec
import proofs.«178027_j78383153152692_2_alg».proof.Proof.LibBlockReads

set_option maxRecDepth 16384

noncomputable section

namespace Cert.KernelIdeal.BodyValue

open Cert.KernelIdeal Cert.KernelIdeal.Gen Idealize.ShloMosaic Idealize.ShloMosaic.ValueIdx
open Idealize.ShloMosaic.BlockReads Cert.L1Spec

/-- The absolute value of a vector, read at an index. -/
theorem absf_apply {s : Shape} (a : FVec Ideal s .f32) (i : s.Idx) : absf a i = eabs (a i) := rfl

/-- One store's payload at a local index `(u, v, p, q)` of its rectangle: the payload's definitions unfolded to the
    body's operations; each operation read at the index (the arithmetic ones pointwise, a spread key column and a spread
    query row by the block-read lemmas); the rectangle's placement of the local index; and the block's left fold
    unrolled over its 64 terms, which is then the same expression. -/
local macro "payload_at_index" : tactic => `(tactic| (
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187]
  simp only [shapeCast_ab_11ab_apply, mulf_apply, addf_apply, subf_apply, absf_apply, broadcast_apply,
    col_spread_apply, ld_row_spread_apply, ld_rows_apply, Ideal.ofBits_def]
  rw [emb_rows]
  simp only [blockScore, blockFold, scale, accFold]))

set_option maxHeartbeats 8000000 in
/-- The eight stores, last first, are each `blockScore x0 x1` under their rectangle. -/
theorem pieces_eq (x0 : Vec Ideal S1x1x64x512 .f32) (x1 : Vec Ideal S1x1x512x64 .f32) :
    out0_2 x0 x1 = blockScore x0 x1 := by
  funext y
  unfold out0_2
  refine View.canon_apply_of_pieces (Val := Elt Ideal) (S := S1x1x512x512) (e := .f32) (blockScore x0 x1) _ ?_ y (cover0_2 _ _ _ _ _ _ _ _ y)
  refine List.forall_mem_cons.mpr ⟨?_, List.forall_mem_cons.mpr ⟨?_, List.forall_mem_cons.mpr ⟨?_,
    List.forall_mem_cons.mpr ⟨?_, List.forall_mem_cons.mpr ⟨?_, List.forall_mem_cons.mpr ⟨?_,
    List.forall_mem_cons.mpr ⟨?_, List.forall_mem_cons.mpr ⟨?_, fun _ h => nomatch h⟩⟩⟩⟩⟩⟩⟩⟩
  all_goals
    intro x
    obtain ⟨u, v, s, t, rfl⟩ : ∃ (u v : Fin 1) (s : Fin 64) (t : Fin 512), x = ix4 u v s t :=
      ⟨x 0, x 1, x 2, x 3, eq_ix4 x⟩
    dsimp only
    payload_at_index

end Cert.KernelIdeal.BodyValue

end
-- ==== Proof.ArrayValue.lean ====
/-
  The kernel's result array after the run is `L1Spec.l1attn` of its two arguments.

  The grid has one point per (batch, head) pair. At the point for `(b, h)` the query window's block is rows `(b, h)` of the
  query array as the region finds it (the argument re-laid (batch, head, width, position) by the host's transpose), the key
  window's block rows `(b, h)` of the key array as the region finds it (re-laid (batch, head, position, width)), and the
  body leaves the block's score (BodyValue.lean) in the output window's buffer, which is written back as block `(b, h)` of
  the result. So what each point writes back is its block of ONE array — the score of the two re-laid arrays —, the 16
  blocks cover the result, and the result is that array.
-/
import proofs.«178027_j78383153152692_2_alg».proof.Proof.Gen.KernelIdeal.Value
import proofs.«178027_j78383153152692_2_alg».proof.Proof.BodyValue
import Idealize.ShloMosaic.Lib.StableHlo.Run

set_option maxRecDepth 16384

noncomputable section

open scoped BigOperators

namespace Cert.KernelIdeal.ArrayValue

open Cert.KernelIdeal Cert.KernelIdeal.Gen Cert.KernelIdeal.Value Idealize.ShloMosaic Idealize.ShloMosaic.TcCoe
open Idealize.SL.Sem Idealize.ShloMosaic.ValueIdx Cert.L1Spec
open Idealize.ShloMosaic.Pipeline (Dat)

variable (m : (ℓ : Loc nD τ sig) → Buf (Elt Ideal) ℓ) (ρ : Dev nD → PrngReg)

/-! ## The two arrays as the region finds them -/

/-- The query window's array is the query argument re-laid (batch, head, width, position). -/
theorem V_query (c : Dev nD) :
    (V m c main_v0 : S2x8x64x512.Idx → EReal) = queryLayout (m ((c : Thread nD τ).loc main_arg0)) := by
  have e : (V m c main_v0 : S2x8x64x512.Idx → EReal)
      = transpose S2x8x64x512 [0, 2, 3, 1] (m ((c : Thread nD τ).loc main_arg0)) transposes_S2x512x8x64_S2x8x64x512_0_2_3_1 := by
    dsimp only [Gen.V, Gen.hostOps0]; after_results
  rw [e]
  funext i
  exact transpose_apply [0, 2, 3, 1] _ transposes_S2x512x8x64_S2x8x64x512_0_2_3_1 i _ (fun b => match b with
    | ⟨0, _⟩ => rfl
    | ⟨1, _⟩ => rfl
    | ⟨2, _⟩ => rfl
    | ⟨3, _⟩ => rfl)

/-- The key window's array is the key argument re-laid (batch, head, position, width). -/
theorem V_key (c : Dev nD) :
    (V m c main_v1 : S2x8x512x64.Idx → EReal) = keyLayout (m ((c : Thread nD τ).loc main_arg1)) := by
  have e : (V m c main_v1 : S2x8x512x64.Idx → EReal)
      = transpose S2x8x512x64 [0, 2, 1, 3] (m ((c : Thread nD τ).loc main_arg1)) transposes_S2x512x8x64_S2x8x512x64_0_2_1_3 := by
    dsimp only [Gen.V, Gen.hostOps0]; after_results
  rw [e]
  funext i
  exact transpose_apply [0, 2, 1, 3] _ transposes_S2x512x8x64_S2x8x512x64_0_2_1_3 i _ (fun b => match b with
    | ⟨0, _⟩ => rfl
    | ⟨1, _⟩ => rfl
    | ⟨2, _⟩ => rfl
    | ⟨3, _⟩ => rfl)

/-! ## The index maps over the grid -/

/-- The three windows' block indices at a point: the two inputs' batch and head coordinates are the output's, every
    other coordinate is zero, and the output's batch and head coordinates are in range (decided over the 16 points). -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 1 ∧ win0_2.index t (1 : Fin 4) ≤ 7 :=
  (by decide +kernel : ∀ t : Fin grid0.N, _)

/-- Every (batch, head) pair is some point's output block. -/
theorem idx_onto : ∀ (b : Fin 2) (h : Fin 8), ∃ t : Fin cfg0.N, win0_2.index t = ![b.val, h.val, 0, 0] :=
  (by decide +kernel : ∀ (b : Fin 2) (h : Fin 8), ∃ t : Fin grid0.N, win0_2.index t = ![b.val, h.val, 0, 0])

/-! ## What a point writes back -/

/-- What point `t` writes back is block `t` of the score of the two arrays the region finds. -/
theorem flushed_eq (c : Dev nD) (t : Fin cfg0.N) :
    (dats m 0 c).flushed 2 t
      = ((cfg0.win 2).blk t).view.read (Elt Ideal) (score (V m c main_v0) (V m c main_v1)) := by
  rw [flushed2, BodyValue.pieces_eq]
  obtain ⟨e00, e01, e02, e03, e10, e11, e12, e13, e22, e23, b0, b1⟩ := idx_facts t
  funext j
  show blockScore (iblk m c 0 t) (iblk m c 1 t) j
    = score (V m c main_v0) (V m c main_v1) (((cfg0.win 2).blk t).view.emb j)
  unfold blockScore score
  rw [blockFold_eq_sum]
  refine congrArg (scale * ·) (Finset.sum_congr rfl fun w _ => ?_)
  have hj0 : (j 0).val < 1 := (j 0).isLt
  have hj1 : (j 1).val < 1 := (j 1).isLt
  have h1 : (iblk m c 1 t : S1x1x512x64.Idx → EReal) (ix4 (0 : Fin 1) (0 : Fin 1) ⟨(j 2).val, (j 2).isLt⟩ w)
      = V m c main_v1 (ix4 (⟨((((cfg0.win 2).blk t).view.emb j) 0).val, ((((cfg0.win 2).blk t).view.emb j) 0).isLt⟩ : Fin 2)
          (⟨((((cfg0.win 2).blk t).view.emb j) 1).val, ((((cfg0.win 2).blk t).view.emb j) 1).isLt⟩ : Fin 8)
          (⟨((((cfg0.win 2).blk t).view.emb j) 2).val, ((((cfg0.win 2).blk t).view.emb j) 2).isLt⟩ : Fin 512) w) := by
    unfold iblk
    rw [View.read_apply]
    show V m c main_v1 _ = V m c main_v1 _
    congr 1
    funext a
    apply Fin.ext
    match a with
    | ⟨0, _⟩ => show win0_1.index t (0 : Fin 4) * 1 + 1 * 0 = win0_2.index t (0 : Fin 4) * 1 + 1 * (j 0).val; omega
    | ⟨1, _⟩ => show win0_1.index t (1 : Fin 4) * 1 + 1 * 0 = win0_2.index t (1 : Fin 4) * 1 + 1 * (j 1).val; omega
    | ⟨2, _⟩ => show win0_1.index t (2 : Fin 4) * 512 + 1 * (j 2).val = win0_2.index t (2 : Fin 4) * 512 + 1 * (j 2).val; omega
    | ⟨3, _⟩ => show win0_1.index t (3 : Fin 4) * 64 + 1 * w.val = w.val; omega
  have h0 : (iblk m c 0 t : S1x1x64x512.Idx → EReal) (ix4 (0 : Fin 1) (0 : Fin 1) w ⟨(j 3).val, (j 3).isLt⟩)
      = V m c main_v0 (ix4 (⟨((((cfg0.win 2).blk t).view.emb j) 0).val, ((((cfg0.win 2).blk t).view.emb j) 0).isLt⟩ : Fin 2)
          (⟨((((cfg0.win 2).blk t).view.emb j) 1).val, ((((cfg0.win 2).blk t).view.emb j) 1).isLt⟩ : Fin 8) w
          (⟨((((cfg0.win 2).blk t).view.emb j) 3).val, ((((cfg0.win 2).blk t).view.emb j) 3).isLt⟩ : Fin 512)) := by
    unfold iblk
    rw [View.read_apply]
    show V m c main_v0 _ = V m c main_v0 _
    congr 1
    funext a
    apply Fin.ext
    match a with
    | ⟨0, _⟩ => show win0_0.index t (0 : Fin 4) * 1 + 1 * 0 = win0_2.index t (0 : Fin 4) * 1 + 1 * (j 0).val; omega
    | ⟨1, _⟩ => show win0_0.index t (1 : Fin 4) * 1 + 1 * 0 = win0_2.index t (1 : Fin 4) * 1 + 1 * (j 1).val; omega
    | ⟨2, _⟩ => show win0_0.index t (2 : Fin 4) * 64 + 1 * w.val = w.val; omega
    | ⟨3, _⟩ => show win0_0.index t (3 : Fin 4) * 512 + 1 * (j 3).val = win0_2.index t (3 : Fin 4) * 512 + 1 * (j 3).val; omega
  rw [h1, h0]

/-! ## The blocks cover the result -/

/-- An index of the result is in point `t`'s block iff each coordinate is in the block's range on its axis. -/
theorem mem_blk (t : Fin cfg0.N) (i : S2x8x512x512.Idx) :
    i ∈ ((cfg0.win 2).blk t).view.set ↔ ∀ a : Fin 4, win0_2.index t a * S1x1x512x512.size a ≤ (i a).val
      ∧ (i a).val < win0_2.index t a * S1x1x512x512.size a + S1x1x512x512.size a := by
  show i ∈ ((View.whole main_v2).slice (win0_2.rect t)).set ↔ _
  rw [View.set_slice_whole, Rect.mem_set_unit]
  exact Iff.rfl

/-- Every index of the result is in the block of the point for its batch and head. -/
theorem cover (i : S2x8x512x512.Idx) :
    ∃ t : Fin cfg0.N, (cfg0.win 2).flush t = true ∧ i ∈ ((cfg0.win 2).blk t).view.set := by
  obtain ⟨t, ht⟩ := idx_onto ⟨(i 0).val, (i 0).isLt⟩ ⟨(i 1).val, (i 1).isLt⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  have h2 : (i 2).val < 512 := (i 2).isLt
  have h3 : (i 3).val < 512 := (i 3).isLt
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-! ## The result array and the run -/

/-- The result array after the run is the score of the two arguments. -/
theorem final (c : Dev nD) :
    (dats m 0 c).arrAt 2 cfg0.N = l1attn (m ((c : Thread nD τ).loc main_arg0)) (m ((c : Thread nD τ).loc main_arg1)) := by
  rw [(dats m 0 c).arrAt_eq_of_cover 2 (score (V m c main_v0) (V m c main_v1)) (fun t _ => flushed_eq m c t) cover,
    V_query, V_key]
  rfl

/-- Every weakly fair execution of the kernel's program terminates with the result at the score of the arguments, the
    arguments unchanged. -/
theorem run : θ_run defs (onTc (τ := τ) (main (F := Ideal))) ⟨m, fun _ => 0, ρ⟩ fun r => ∀ c : Dev nD,
      r.2.mem ((c : Thread nD τ).loc main_v2) = l1attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.RefValue.lean ====
/-
  The reference computes `L1Spec.l1attn` of its two arguments.

  Its result at (batch `b`, head `h`, key `s`, query `t`) is the scale times the host's sum, from the zero word, over the
  width `w` of `|q (b, t, h, w) − k (b, s, h, w)|`: the two transposes and the four broadcasts only re-index the
  arguments. The kernel subtracts the other way round; `|a − b| = |b − a|` on the extended reals joins the two.
-/
import proofs.«178027_j78383153152692_2_alg».proof.Proof.Gen.ReferenceIdeal.Read
import proofs.«178027_j78383153152692_2_alg».proof.Proof.L1Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.L1Spec

/-- The reference's last stage, read at an index, is the score of the arguments. -/
theorem result_eq (q k : (⟨S2x512x8x64, .f32⟩ : BufTy).Contents (Elt Ideal)) :
    val_main_v10 (F := Ideal) q k = l1attn q k := by
  funext i
  rw [val_main_v10_apply, val_main_v9_apply, val_main_cst_0_apply, val_main_v8_apply, val_main_cst_apply]
  simp only [val_main_v7_apply, val_main_v6_apply, val_main_v4_apply, val_main_v5_apply, val_main_v2_apply,
    val_main_v3_apply, val_main_v0_apply, val_main_v1_apply]
  show Ideal.ofBits .f32 0xBE000000#32 * (Ideal.ofBits .f32 0x00000000#32 + ∑ w : Fin 64, eabs (q _ - k _)) = scale * ∑ w : Fin 64, eabs (k _ - q _)
  rw [Ideal.ofBits_zero_f32, zero_add]
  refine congrArg (scale * ·) (Finset.sum_congr rfl fun w _ => ?_)
  rw [eabs_sub_comm]
  congr 2
  · exact congrArg k (funext fun a => Fin.ext (by match a with | ⟨0, _⟩ => rfl | ⟨1, _⟩ => rfl | ⟨2, _⟩ => rfl | ⟨3, _⟩ => rfl))
  · exact congrArg q (funext fun a => Fin.ext (by match a with | ⟨0, _⟩ => rfl | ⟨1, _⟩ => rfl | ⟨2, _⟩ => rfl | ⟨3, _⟩ => rfl))

end Cert.ReferenceIdeal.RefValue

end
-- ==== Proof.lean ====
/- The kernel computes, for two arguments `q, k : f32[2, 512, 8, 64]` (batch, position, head, width), the L1 attention score

       c (b, h, s, t) = −1/8 · ∑ w < 64, |k (b, s, h, w) − q (b, t, h, w)|        : f32[2, 8, 512, 512],

   one (batch, head) block per grid point, the 512 key rows in eight chunks of 64, the 64 width terms added one after
   the other into an accumulator; the reference computes `−1/8 · ∑ w, |q (b, t, h, w) − k (b, s, h, w)|` by one host sum.
   At the ideal instance both are `L1Spec.l1attn q k` on the extended reals: the kernel by Proof/BodyValue.lean (the body's
   block) and Proof/ArrayValue.lean (the blocks tile the result), the reference by Proof/RefValue.lean, the two orders of
   subtraction joined by `|a − b| = |b − a|`, which holds for every pair of extended reals, so the precondition is not
   opened. The three frames are the generated ones (the reference's is its run with the result dropped); the ideal pass
   rewrote nothing, so the idealization statement is `True`. -/
import proofs.«178027_j78383153152692_2_alg».proof.Defs
import proofs.«178027_j78383153152692_2_alg».proof.Proof.Gen.Kernel
import proofs.«178027_j78383153152692_2_alg».proof.Proof.Gen.Kernel.Skeleton
import proofs.«178027_j78383153152692_2_alg».proof.Proof.Gen.Kernel.Launch
import proofs.«178027_j78383153152692_2_alg».proof.Proof.Gen.Kernel.Points
import proofs.«178027_j78383153152692_2_alg».proof.Proof.Gen.Kernel.Frame
import proofs.«178027_j78383153152692_2_alg».proof.Proof.Gen.KernelIdeal
import proofs.«178027_j78383153152692_2_alg».proof.Proof.Gen.KernelIdeal.Skeleton
import proofs.«178027_j78383153152692_2_alg».proof.Proof.Gen.KernelIdeal.Launch
import proofs.«178027_j78383153152692_2_alg».proof.Proof.Gen.KernelIdeal.Points
import proofs.«178027_j78383153152692_2_alg».proof.Proof.Gen.KernelIdeal.Frame
import proofs.«178027_j78383153152692_2_alg».proof.Proof.Gen.ReferenceIdeal
import proofs.«178027_j78383153152692_2_alg».proof.Proof.Gen.Pre_finite_inputs
import proofs.«178027_j78383153152692_2_alg».proof.Proof.Gen.KernelIdeal.Value
import proofs.«178027_j78383153152692_2_alg».proof.Proof.Gen.ReferenceIdeal.Run
import proofs.«178027_j78383153152692_2_alg».proof.Proof.Gen.ReferenceIdeal.Read
import proofs.«178027_j78383153152692_2_alg».proof.Proof.ArrayValue
import proofs.«178027_j78383153152692_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result at `l1attn` of the arguments. -/
theorem algebraic : Cert.algebraic_KernelIdeal_ReferenceIdeal := by
  intro m ρ m' ρ' _ hagree
  refine ⟨fun c => Cert.L1Spec.l1attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
